-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x64 : Shape := ⟨2, ![10000, 64]⟩
abbrev S10000x128 : Shape := ⟨2, ![10000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 83
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S1x64, .f32⟩
  | .hbm, ⟨82, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run with its result named.

  The program is three row-blocked regions among stretches of host operations. Its run from any launch memory ends
  with every unscoped buffer at the contents of the last segment boundary (the fold of the host stretches and the
  regions' write-backs through @main). Stated here: besides the six argument arrays ending as launched, the result
  array `main_v60` ends at that last boundary's contents; the value modules read the boundary back to the arguments.
-/
import proofs.«135893_j17686675324959_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and every argument array as launched. -/
theorem run_val : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunVal

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.RefWin.lean ====
/-
  The reference's @main cut into the six stretches that mirror the row-blocked program's segments.

  The reference computes the same two-layer graph convolution as one straight line of 83 host operations. Cut at the
  places where the other program enters and leaves a row-blocked region, the line is: the edge-list prefix (sources
  and destinations with self loops, degrees, the symmetric normalisation), the first projection, the first neighbour
  aggregation, "bias, rectifier, second projection", the second neighbour aggregation, the final bias. The fold of the
  whole line over a memory is the fold of the stretches in turn.
-/
import proofs.«135893_j17686675324959_1_alg».proof.Proof.RefRunP
import proofs.«135893_j17686675324959_1_alg».proof.Proof.LibCat

noncomputable section

namespace Cert.ReferenceIdeal.Fold

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- The edge-list prefix: sources, destinations, degrees, normalisation (through `main_v29`). -/
abbrev w0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first projection, one whole product (`main_v30`). -/
abbrev w1 : List (HloOp τ sig (Elt F)) :=
  [ binary main_arg0 main_arg2 main_v30 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) ]

/-- The first neighbour aggregation: gather, scale, scatter-add (through `main_v43`). -/
abbrev w2 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Bias, rectifier and the second projection (through `main_v48`). -/
abbrev w3 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The second neighbour aggregation (through `main_v61`). -/
abbrev w4 : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x64 ![0, 1] bcast_S1700000x1_S1700000x64_0_1 : (⟨S1700000x1, .f32⟩ : BufTy).Contents (Elt F) → (⟨S1700000x64, .f32⟩ : BufTy).Contents (Elt F)),
    binary main_v55 main_v57 main_v58 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The final bias (through `main_v64`). -/
abbrev w5 : List (HloOp τ sig (Elt F)) :=
  [ unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)) ]

set_option maxRecDepth 8192 in
/-- The line is its six stretches in order. -/
theorem ops_split : (ops : List (HloOp τ sig (Elt F))) = w0 ++ (w1 ++ (w2 ++ (w3 ++ (w4 ++ w5)))) := rfl

/-- Folding the whole line is folding the stretches in turn. -/
theorem after_ops (V : Valuation τ sig (Elt F)) :
    after ops V = after w5 (after w4 (after w3 (after w2 (after w1 (after w0 V))))) := by
  rw [ops_split, Cert.Lib.after_append, Cert.Lib.after_append, Cert.Lib.after_append, Cert.Lib.after_append,
    Cert.Lib.after_append]

end Cert.ReferenceIdeal.Fold

end
-- ==== Proof.StageBase.lean ====
/-
  Two memories side by side: the row-blocked program's and the reference's, both at the extended reals.
-/
import proofs.«135893_j17686675324959_1_alg».proof.Proof.Gen.KernelIdeal.Frame
import proofs.«135893_j17686675324959_1_alg».proof.Proof.RefWin
import Idealize.ShloMosaic.PureOps.Ideal

noncomputable section

namespace Cert.Join

open Idealize.ShloMosaic Idealize.ShloMosaic.TcCoe Idealize.SL.Sem Idealize.ShloMosaic.StableHlo

/-- A memory of the row-blocked program's TensorCore, at the extended reals. -/
abbrev VK := Valuation Cert.KernelIdeal.τ Cert.KernelIdeal.sig (Elt Ideal)
/-- A memory of the reference's TensorCore, at the extended reals. -/
abbrev VR := Valuation Cert.ReferenceIdeal.τ Cert.ReferenceIdeal.sig (Elt Ideal)

/-- The row-blocked program's three prefix stretches, folded in order. -/
abbrev kprefix (Wk : VK) : VK :=
  after (Cert.KernelIdeal.Gen.hostOps0_2 (F := Ideal)) (after (Cert.KernelIdeal.Gen.hostOps0_1 (F := Ideal)) (after (Cert.KernelIdeal.Gen.hostOps0 (F := Ideal)) Wk))

end Cert.Join

end
-- ==== Proof.StagePrefix.lean ====
/-
  The edge-list prefix is the same computation in both programs.

  Both programs begin with the same 40 host operations on the edge list alone: the source and destination lists with
  a self loop appended for every node, the in-degrees by a scatter-add of ones, their inverse square roots where
  positive, and the per-edge normalisation as the product of the two endpoints' values. Read back from any two
  memories that agree on the edge list, the three arrays the later stretches use — sources (`main_v3`), destinations
  (`main_v6`), normalisation (`main_v29`) — are the same arrays.
-/
import proofs.«135893_j17686675324959_1_alg».proof.Proof.StageBase

noncomputable section

namespace Cert.Join

open Idealize.ShloMosaic Idealize.ShloMosaic.TcCoe Idealize.SL.Sem Idealize.ShloMosaic.StableHlo

set_option maxHeartbeats 4000000 in
/-- Sources with self loops. -/
theorem prefix_src (Wk : VK) (Wr : VR) (h1 : Wk (Proc.devRef .tc Cert.KernelIdeal.main_arg1) = Wr (Proc.devRef .tc Cert.ReferenceIdeal.main_arg1)) :
    kprefix Wk (Proc.devRef .tc Cert.KernelIdeal.main_v3) = after (Cert.ReferenceIdeal.Fold.w0 (F := Ideal)) Wr (Proc.devRef .tc Cert.ReferenceIdeal.main_v3) := by
  after_results_simp
  finish_results_rw
  rw [h1]
  rfl

set_option maxHeartbeats 4000000 in
/-- Destinations with self loops. -/
theorem prefix_dst (Wk : VK) (Wr : VR) (h1 : Wk (Proc.devRef .tc Cert.KernelIdeal.main_arg1) = Wr (Proc.devRef .tc Cert.ReferenceIdeal.main_arg1)) :
    kprefix Wk (Proc.devRef .tc Cert.KernelIdeal.main_v6) = after (Cert.ReferenceIdeal.Fold.w0 (F := Ideal)) Wr (Proc.devRef .tc Cert.ReferenceIdeal.main_v6) := by
  after_results_simp
  finish_results_rw
  rw [h1]
  rfl

set_option maxHeartbeats 8000000 in
/-- The per-edge symmetric normalisation. -/
theorem prefix_norm (Wk : VK) (Wr : VR) (h1 : Wk (Proc.devRef .tc Cert.KernelIdeal.main_arg1) = Wr (Proc.devRef .tc Cert.ReferenceIdeal.main_arg1)) :
    kprefix Wk (Proc.devRef .tc Cert.KernelIdeal.main_v29) = after (Cert.ReferenceIdeal.Fold.w0 (F := Ideal)) Wr (Proc.devRef .tc Cert.ReferenceIdeal.main_v29) := by
  after_results_simp
  finish_results_rw
  rw [h1]
  rfl

end Cert.Join

end
-- ==== Proof.StageAgg.lean ====
/-
  The neighbour aggregations, the bias rows, and the reference's dense stretches read back.

  After each projection both programs run the same sixteen host operations: gather the projected rows along the
  source list, scale each gathered row by its edge's normalisation, scatter-add into the destination rows of a zero
  array. From memories that agree on the projected array and on the three edge arrays, the aggregated arrays agree.
  The row-blocked program then reshapes the bias vector to one row; the reference instead runs, as host operations,
  the bias broadcast, the addition, the rectifier and the whole second product, and at the end the last bias
  broadcast and addition: those stretches are read back here as pure terms of the arrays they start from.
-/
import proofs.«135893_j17686675324959_1_alg».proof.Proof.StageBase

noncomputable section

namespace Cert.Join

open Idealize.ShloMosaic Idealize.ShloMosaic.TcCoe Idealize.SL.Sem Idealize.ShloMosaic.StableHlo

set_option maxHeartbeats 2000000 in
/-- First aggregation: of the 128-column projection. -/
theorem agg1 (Wk : VK) (Wr : VR)
    (h30 : Wk (Proc.devRef .tc Cert.KernelIdeal.main_v30) = Wr (Proc.devRef .tc Cert.ReferenceIdeal.main_v30))
    (h3 : Wk (Proc.devRef .tc Cert.KernelIdeal.main_v3) = Wr (Proc.devRef .tc Cert.ReferenceIdeal.main_v3))
    (h6 : Wk (Proc.devRef .tc Cert.KernelIdeal.main_v6) = Wr (Proc.devRef .tc Cert.ReferenceIdeal.main_v6))
    (h29 : Wk (Proc.devRef .tc Cert.KernelIdeal.main_v29) = Wr (Proc.devRef .tc Cert.ReferenceIdeal.main_v29)) :
    after (Cert.KernelIdeal.Gen.hostOps1 (F := Ideal)) Wk (Proc.devRef .tc Cert.KernelIdeal.main_v43)
      = after (Cert.ReferenceIdeal.Fold.w2 (F := Ideal)) Wr (Proc.devRef .tc Cert.ReferenceIdeal.main_v43) := by
  after_results_simp
  rw [h30, h3, h6, h29]
  rfl

set_option maxHeartbeats 2000000 in
/-- Second aggregation: of the 64-column projection (the reference's is its `main_v48`). -/
theorem agg2 (Wk : VK) (Wr : VR)
    (h45 : Wk (Proc.devRef .tc Cert.KernelIdeal.main_v45) = Wr (Proc.devRef .tc Cert.ReferenceIdeal.main_v48))
    (h3 : Wk (Proc.devRef .tc Cert.KernelIdeal.main_v3) = Wr (Proc.devRef .tc Cert.ReferenceIdeal.main_v3))
    (h6 : Wk (Proc.devRef .tc Cert.KernelIdeal.main_v6) = Wr (Proc.devRef .tc Cert.ReferenceIdeal.main_v6))
    (h29 : Wk (Proc.devRef .tc Cert.KernelIdeal.main_v29) = Wr (Proc.devRef .tc Cert.ReferenceIdeal.main_v29)) :
    after (Cert.KernelIdeal.Gen.hostOps2 (F := Ideal)) Wk (Proc.devRef .tc Cert.KernelIdeal.main_v58)
      = after (Cert.ReferenceIdeal.Fold.w4 (F := Ideal)) Wr (Proc.devRef .tc Cert.ReferenceIdeal.main_v61) := by
  after_results_simp
  rw [h45, h3, h6, h29]
  rfl

/-- The first bias vector reshaped to one row. -/
theorem bias1_row (Wk : VK) :
    after (Cert.KernelIdeal.Gen.hostOps1 (F := Ideal)) Wk (Proc.devRef .tc Cert.KernelIdeal.main_v44)
      = shapeCast Cert.KernelIdeal.S1x128 (Wk (Proc.devRef .tc Cert.KernelIdeal.main_arg3)) Cert.KernelIdeal.Gen.shapeCasts_S128_S1x128 := by
  after_results_simp <;> rfl

/-- The second bias vector reshaped to one row. -/
theorem bias2_row (Wk : VK) :
    after (Cert.KernelIdeal.Gen.hostOps2 (F := Ideal)) Wk (Proc.devRef .tc Cert.KernelIdeal.main_v59)
      = shapeCast Cert.KernelIdeal.S1x64 (Wk (Proc.devRef .tc Cert.KernelIdeal.main_arg5)) Cert.KernelIdeal.Gen.shapeCasts_S64_S1x64 := by
  after_results_simp <;> rfl

/-- The reference's first projection: one whole product of the features and the first weights. -/
theorem ref_lin1 (Wr : VR) :
    @Eq (FVec Ideal Cert.ReferenceIdeal.S100000x128 .f32) (after (Cert.ReferenceIdeal.Fold.w1 (F := Ideal)) Wr (Proc.devRef .tc Cert.ReferenceIdeal.main_v30))
      (Host.dotGeneral (F := Ideal) (φ₁ := .f32) (φ₂ := .f32) Cert.ReferenceIdeal.dot_S100000x64_S64x128_S100000x128_1_0_0_1_n_n none
        (Wr (Proc.devRef .tc Cert.ReferenceIdeal.main_arg0)) (Wr (Proc.devRef .tc Cert.ReferenceIdeal.main_arg2))) := by
  after_results_simp <;> rfl

/-- The reference's last stretch: the second bias broadcast over the rows and added. -/
theorem ref_bias (Wr : VR) :
    @Eq (FVec Ideal Cert.ReferenceIdeal.S100000x64 .f32) (after (Cert.ReferenceIdeal.Fold.w5 (F := Ideal)) Wr (Proc.devRef .tc Cert.ReferenceIdeal.main_v64))
      (addf (F := Ideal) (φ := .f32) (Wr (Proc.devRef .tc Cert.ReferenceIdeal.main_v61))
        (broadcastInDim (α := Ideal .f32) Cert.ReferenceIdeal.S100000x64 ![0, 1] Cert.ReferenceIdeal.Gen.bcast_S1x64_S100000x64_0_1
          (broadcastInDim (α := Ideal .f32) Cert.ReferenceIdeal.S1x64 ![1] Cert.ReferenceIdeal.Gen.bcast_S64_S1x64_1 (Wr (Proc.devRef .tc Cert.ReferenceIdeal.main_arg5))))) := by
  after_results_simp <;> rfl

set_option maxHeartbeats 2000000 in
/-- The reference's middle stretch: bias broadcast, addition, rectifier (an outlined function: its three operations
    go through typed references), whole second product. -/
theorem ref_lin2 (Wr : VR) :
    @Eq (FVec Ideal Cert.ReferenceIdeal.S100000x64 .f32) (after (Cert.ReferenceIdeal.Fold.w3 (F := Ideal)) Wr (Proc.devRef .tc Cert.ReferenceIdeal.main_v48))
      (Host.dotGeneral (F := Ideal) (φ₁ := .f32) (φ₂ := .f32) Cert.ReferenceIdeal.dot_S100000x128_S128x64_S100000x64_1_0_0_1_n_n none
        (maximumf (F := Ideal) (φ := .f32)
          (addf (F := Ideal) (φ := .f32) (Wr (Proc.devRef .tc Cert.ReferenceIdeal.main_v43))
            (broadcastInDim (α := Ideal .f32) Cert.ReferenceIdeal.S100000x128 ![0, 1] Cert.ReferenceIdeal.Gen.bcast_S1x128_S100000x128_0_1
              (broadcastInDim (α := Ideal .f32) Cert.ReferenceIdeal.S1x128 ![1] Cert.ReferenceIdeal.Gen.bcast_S128_S1x128_1 (Wr (Proc.devRef .tc Cert.ReferenceIdeal.main_arg3)))))
          (broadcastInDim (α := Ideal .f32) Cert.ReferenceIdeal.S100000x128 ![] Cert.ReferenceIdeal.Gen.bcast_S_S100000x128 (constant (F := Ideal) Cert.ReferenceIdeal.S_ .f32 0x00000000#32)))
        (Wr (Proc.devRef .tc Cert.ReferenceIdeal.main_arg4))) := by
  after_results_simp
  simp only [Cert.Lib.ofBuf_toBuf]
  rfl

end Cert.Join

end
-- ==== Proof.StageKeep.lean ====
/-
  What each stretch of host operations leaves alone.

  A stretch writes only the buffers of its own operations' results; the arrays that later stretches still need — the
  source, destination and normalisation arrays of the edge list, and the weight and bias arguments — pass through
  unchanged. One statement per stretch and buffer, for the row-blocked program's stretches and for the reference's.
-/
import proofs.«135893_j17686675324959_1_alg».proof.Proof.StageBase

noncomputable section

namespace Cert.Join

open Idealize.ShloMosaic Idealize.ShloMosaic.TcCoe Idealize.SL.Sem Idealize.ShloMosaic.StableHlo

theorem kprefix_main_arg0 (Wk : VK) : kprefix Wk (Proc.devRef .tc Cert.KernelIdeal.main_arg0) = Wk (Proc.devRef .tc Cert.KernelIdeal.main_arg0) := by
  after_results_simp <;> rfl

theorem kprefix_main_arg2 (Wk : VK) : kprefix Wk (Proc.devRef .tc Cert.KernelIdeal.main_arg2) = Wk (Proc.devRef .tc Cert.KernelIdeal.main_arg2) := by
  after_results_simp <;> rfl

theorem kprefix_main_arg3 (Wk : VK) : kprefix Wk (Proc.devRef .tc Cert.KernelIdeal.main_arg3) = Wk (Proc.devRef .tc Cert.KernelIdeal.main_arg3) := by
  after_results_simp <;> rfl

theorem kprefix_main_arg4 (Wk : VK) : kprefix Wk (Proc.devRef .tc Cert.KernelIdeal.main_arg4) = Wk (Proc.devRef .tc Cert.KernelIdeal.main_arg4) := by
  after_results_simp <;> rfl

theorem kprefix_main_arg5 (Wk : VK) : kprefix Wk (Proc.devRef .tc Cert.KernelIdeal.main_arg5) = Wk (Proc.devRef .tc Cert.KernelIdeal.main_arg5) := by
  after_results_simp <;> rfl

theorem khost1_main_v3 (Wk : VK) : after (Cert.KernelIdeal.Gen.hostOps1 (F := Ideal)) Wk (Proc.devRef .tc Cert.KernelIdeal.main_v3) = Wk (Proc.devRef .tc Cert.KernelIdeal.main_v3) := by
  after_results_simp <;> rfl

theorem khost1_main_v6 (Wk : VK) : after (Cert.KernelIdeal.Gen.hostOps1 (F := Ideal)) Wk (Proc.devRef .tc Cert.KernelIdeal.main_v6) = Wk (Proc.devRef .tc Cert.KernelIdeal.main_v6) := by
  after_results_simp <;> rfl

theorem khost1_main_v29 (Wk : VK) : after (Cert.KernelIdeal.Gen.hostOps1 (F := Ideal)) Wk (Proc.devRef .tc Cert.KernelIdeal.main_v29) = Wk (Proc.devRef .tc Cert.KernelIdeal.main_v29) := by
  after_results_simp <;> rfl

theorem khost1_main_arg4 (Wk : VK) : after (Cert.KernelIdeal.Gen.hostOps1 (F := Ideal)) Wk (Proc.devRef .tc Cert.KernelIdeal.main_arg4) = Wk (Proc.devRef .tc Cert.KernelIdeal.main_arg4) := by
  after_results_simp <;> rfl

theorem khost1_main_arg5 (Wk : VK) : after (Cert.KernelIdeal.Gen.hostOps1 (F := Ideal)) Wk (Proc.devRef .tc Cert.KernelIdeal.main_arg5) = Wk (Proc.devRef .tc Cert.KernelIdeal.main_arg5) := by
  after_results_simp <;> rfl

theorem rw0_main_arg0 (Wr : VR) : after (Cert.ReferenceIdeal.Fold.w0 (F := Ideal)) Wr (Proc.devRef .tc Cert.ReferenceIdeal.main_arg0) = Wr (Proc.devRef .tc Cert.ReferenceIdeal.main_arg0) := by
  after_results_simp <;> rfl

theorem rw0_main_arg2 (Wr : VR) : after (Cert.ReferenceIdeal.Fold.w0 (F := Ideal)) Wr (Proc.devRef .tc Cert.ReferenceIdeal.main_arg2) = Wr (Proc.devRef .tc Cert.ReferenceIdeal.main_arg2) := by
  after_results_simp <;> rfl

theorem rw0_main_arg3 (Wr : VR) : after (Cert.ReferenceIdeal.Fold.w0 (F := Ideal)) Wr (Proc.devRef .tc Cert.ReferenceIdeal.main_arg3) = Wr (Proc.devRef .tc Cert.ReferenceIdeal.main_arg3) := by
  after_results_simp <;> rfl

theorem rw0_main_arg4 (Wr : VR) : after (Cert.ReferenceIdeal.Fold.w0 (F := Ideal)) Wr (Proc.devRef .tc Cert.ReferenceIdeal.main_arg4) = Wr (Proc.devRef .tc Cert.ReferenceIdeal.main_arg4) := by
  after_results_simp <;> rfl

theorem rw0_main_arg5 (Wr : VR) : after (Cert.ReferenceIdeal.Fold.w0 (F := Ideal)) Wr (Proc.devRef .tc Cert.ReferenceIdeal.main_arg5) = Wr (Proc.devRef .tc Cert.ReferenceIdeal.main_arg5) := by
  after_results_simp <;> rfl

theorem rw1_main_v3 (Wr : VR) : after (Cert.ReferenceIdeal.Fold.w1 (F := Ideal)) Wr (Proc.devRef .tc Cert.ReferenceIdeal.main_v3) = Wr (Proc.devRef .tc Cert.ReferenceIdeal.main_v3) := by
  after_results_simp <;> rfl

theorem rw1_main_v6 (Wr : VR) : after (Cert.ReferenceIdeal.Fold.w1 (F := Ideal)) Wr (Proc.devRef .tc Cert.ReferenceIdeal.main_v6) = Wr (Proc.devRef .tc Cert.ReferenceIdeal.main_v6) := by
  after_results_simp <;> rfl

theorem rw1_main_v29 (Wr : VR) : after (Cert.ReferenceIdeal.Fold.w1 (F := Ideal)) Wr (Proc.devRef .tc Cert.ReferenceIdeal.main_v29) = Wr (Proc.devRef .tc Cert.ReferenceIdeal.main_v29) := by
  after_results_simp <;> rfl

theorem rw1_main_arg3 (Wr : VR) : after (Cert.ReferenceIdeal.Fold.w1 (F := Ideal)) Wr (Proc.devRef .tc Cert.ReferenceIdeal.main_arg3) = Wr (Proc.devRef .tc Cert.ReferenceIdeal.main_arg3) := by
  after_results_simp <;> rfl

theorem rw1_main_arg4 (Wr : VR) : after (Cert.ReferenceIdeal.Fold.w1 (F := Ideal)) Wr (Proc.devRef .tc Cert.ReferenceIdeal.main_arg4) = Wr (Proc.devRef .tc Cert.ReferenceIdeal.main_arg4) := by
  after_results_simp <;> rfl

theorem rw1_main_arg5 (Wr : VR) : after (Cert.ReferenceIdeal.Fold.w1 (F := Ideal)) Wr (Proc.devRef .tc Cert.ReferenceIdeal.main_arg5) = Wr (Proc.devRef .tc Cert.ReferenceIdeal.main_arg5) := by
  after_results_simp <;> rfl

theorem rw2_main_v3 (Wr : VR) : after (Cert.ReferenceIdeal.Fold.w2 (F := Ideal)) Wr (Proc.devRef .tc Cert.ReferenceIdeal.main_v3) = Wr (Proc.devRef .tc Cert.ReferenceIdeal.main_v3) := by
  after_results_simp <;> rfl

theorem rw2_main_v6 (Wr : VR) : after (Cert.ReferenceIdeal.Fold.w2 (F := Ideal)) Wr (Proc.devRef .tc Cert.ReferenceIdeal.main_v6) = Wr (Proc.devRef .tc Cert.ReferenceIdeal.main_v6) := by
  after_results_simp <;> rfl

theorem rw2_main_v29 (Wr : VR) : after (Cert.ReferenceIdeal.Fold.w2 (F := Ideal)) Wr (Proc.devRef .tc Cert.ReferenceIdeal.main_v29) = Wr (Proc.devRef .tc Cert.ReferenceIdeal.main_v29) := by
  after_results_simp <;> rfl

theorem rw2_main_arg3 (Wr : VR) : after (Cert.ReferenceIdeal.Fold.w2 (F := Ideal)) Wr (Proc.devRef .tc Cert.ReferenceIdeal.main_arg3) = Wr (Proc.devRef .tc Cert.ReferenceIdeal.main_arg3) := by
  after_results_simp <;> rfl

theorem rw2_main_arg4 (Wr : VR) : after (Cert.ReferenceIdeal.Fold.w2 (F := Ideal)) Wr (Proc.devRef .tc Cert.ReferenceIdeal.main_arg4) = Wr (Proc.devRef .tc Cert.ReferenceIdeal.main_arg4) := by
  after_results_simp <;> rfl

theorem rw2_main_arg5 (Wr : VR) : after (Cert.ReferenceIdeal.Fold.w2 (F := Ideal)) Wr (Proc.devRef .tc Cert.ReferenceIdeal.main_arg5) = Wr (Proc.devRef .tc Cert.ReferenceIdeal.main_arg5) := by
  after_results_simp <;> rfl

theorem rw3_main_v3 (Wr : VR) : after (Cert.ReferenceIdeal.Fold.w3 (F := Ideal)) Wr (Proc.devRef .tc Cert.ReferenceIdeal.main_v3) = Wr (Proc.devRef .tc Cert.ReferenceIdeal.main_v3) := by
  after_results_simp <;> rfl

theorem rw3_main_v6 (Wr : VR) : after (Cert.ReferenceIdeal.Fold.w3 (F := Ideal)) Wr (Proc.devRef .tc Cert.ReferenceIdeal.main_v6) = Wr (Proc.devRef .tc Cert.ReferenceIdeal.main_v6) := by
  after_results_simp <;> rfl

theorem rw3_main_v29 (Wr : VR) : after (Cert.ReferenceIdeal.Fold.w3 (F := Ideal)) Wr (Proc.devRef .tc Cert.ReferenceIdeal.main_v29) = Wr (Proc.devRef .tc Cert.ReferenceIdeal.main_v29) := by
  after_results_simp <;> rfl

theorem rw3_main_arg5 (Wr : VR) : after (Cert.ReferenceIdeal.Fold.w3 (F := Ideal)) Wr (Proc.devRef .tc Cert.ReferenceIdeal.main_arg5) = Wr (Proc.devRef .tc Cert.ReferenceIdeal.main_arg5) := by
  after_results_simp <;> rfl

theorem rw4_main_arg5 (Wr : VR) : after (Cert.ReferenceIdeal.Fold.w4 (F := Ideal)) Wr (Proc.devRef .tc Cert.ReferenceIdeal.main_arg5) = Wr (Proc.devRef .tc Cert.ReferenceIdeal.main_arg5) := by
  after_results_simp <;> rfl

end Cert.Join

end
-- ==== Proof.Spec.lean ====
/-
  The three dense layers of a two-layer graph convolution, as whole-array functions on the extended reals.

  A graph-convolution layer is "project the node features, then average over neighbours". The neighbour averaging
  (gather along the edge list, scale by the symmetric normalisation, scatter-add into the destination rows) is the
  same sequence of array operations in both programs and is never opened. What differs between the programs is how
  the dense steps are computed — in row blocks of 10000 nodes on the matrix unit, with operands passed through a
  narrower float format, against one whole product — and at the extended reals these are the three functions below:

  * `lin1 x w`      : the first projection, entry `(r, c)` is `∑ k, x (r, k) * w (k, c)` over the 64 input features;
  * `lin2 a b w`    : bias, rectifier and second projection fused, entry `(r, c)` is
                       `∑ k, max (a (r, k) + b (0, k)) 0 * w (k, c)` over the 128 hidden features;
  * `bias a b`      : the final bias, entry `(r, c)` is `a (r, c) + b (0, c)`;
  * `row1 b`, `row2 b` : a bias vector as the one-row matrix `(0, k) ↦ b k`.

  The bias vectors are taken as one-row matrices (the form in which they reach the row-blocked computation); the
  zero of the rectifier is kept as the float word it is printed as, the same word on both sides.
-/
import Idealize.ShloMosaic.PureOps.Ideal
import Idealize.ShloMosaic.Lib.ValueIdx

noncomputable section

namespace Cert.Spec

open Idealize.ShloMosaic Idealize.ShloMosaic.ValueIdx

/-- Node features in and out: 100000 nodes by 64 features. -/
abbrev SX : Shape := ⟨2, ![100000, 64]⟩
/-- Hidden features: 100000 nodes by 128 features. -/
abbrev SH : Shape := ⟨2, ![100000, 128]⟩
/-- First weight matrix, 64 by 128. -/
abbrev SW1 : Shape := ⟨2, ![64, 128]⟩
/-- Second weight matrix, 128 by 64. -/
abbrev SW2 : Shape := ⟨2, ![128, 64]⟩
/-- First bias as a one-row matrix. -/
abbrev SB1 : Shape := ⟨2, ![1, 128]⟩
/-- Second bias as a one-row matrix. -/
abbrev SB2 : Shape := ⟨2, ![1, 64]⟩

/-- First bias as a vector. -/
abbrev SV1 : Shape := ⟨1, ![128]⟩
/-- Second bias as a vector. -/
abbrev SV2 : Shape := ⟨1, ![64]⟩

/-- A bias vector laid out as a one-row matrix (either by a reshape or by a broadcast along a new leading axis). -/
def row1 (b : SV1.Idx → EReal) : SB1.Idx → EReal := fun i => b (ix1 (i 1))
/-- The same for the second bias. -/
def row2 (b : SV2.Idx → EReal) : SB2.Idx → EReal := fun i => b (ix1 (i 1))

/-- The rectifier's zero, as the float word both programs print. -/
abbrev zero32 : EReal := Ideal.ofBits .f32 0x00000000#32

/-- First projection: `x · w`, a sum over the 64 input features. -/
def lin1 (x : SX.Idx → EReal) (w : SW1.Idx → EReal) : SH.Idx → EReal :=
  fun i => ∑ k : Fin 64, x (ix2 (i 0) k) * w (ix2 k (i 1))

/-- Bias, rectifier, second projection: `max (a + b) 0 · w`, a sum over the 128 hidden features. -/
def lin2 (a : SH.Idx → EReal) (b : SB1.Idx → EReal) (w : SW2.Idx → EReal) : SX.Idx → EReal :=
  fun i => ∑ k : Fin 128, max (a (ix2 (i 0) k) + b (ix2 (0 : Fin 1) k)) zero32 * w (ix2 k (i 1))

/-- Final bias: every row shifted by the one-row matrix `b`. -/
def bias (a : SX.Idx → EReal) (b : SB2.Idx → EReal) : SX.Idx → EReal :=
  fun i => a i + b (ix2 (0 : Fin 1) (i 1))

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Region0.lean ====
/-
  The first projection, block by block: what the first row-blocked region leaves in its output array.

  The region's grid has 10 points. Point `t` loads rows `10000 t … 10000 t + 9999` of the 100000×64 feature array
  and the whole 64×128 weight matrix, multiplies them on the matrix unit into a zero accumulator (both operands pass
  through a narrower float format, which changes nothing at the extended reals), and writes the 10000×128 product back
  as rows `10000 t … 10000 t + 9999` of the output. Entry `(r, c)` of that block is `∑ k, x (10000 t + r, k) * w (k, c)`,
  which is entry `(10000 t + r, c)` of the whole product `Cert.Spec.lin1 x w`; the ten blocks cover the array (row `r`
  lies in the block of point `r / 10000`), so the array after the region is `lin1` of the arrays as the region finds them.
-/
import proofs.«135893_j17686675324959_1_alg».proof.Proof.Gen.KernelIdeal.Frame
import proofs.«135893_j17686675324959_1_alg».proof.Proof.Spec
import proofs.«135893_j17686675324959_1_alg».proof.Proof.LibPlainDot
import Idealize.ShloMosaic.Lib.Pipeline.Value

noncomputable section

namespace Cert.KernelIdeal.RegionValue
open Cert.KernelIdeal Cert.KernelIdeal.Gen Idealize.ShloMosaic Idealize.ShloMosaic.TcCoe Idealize.SL.Sem
open Idealize.ShloMosaic.Pipeline (Dat Cfg Window)
open Idealize.ShloMosaic.ValueIdx

namespace Projection1

/-- The two zero offsets of a whole-buffer access, as the constant function. -/
theorem zero_offsets : (![0, 0] : Fin 2 → Nat) = fun _ => 0 := funext fun a => by fin_cases a <;> rfl

/-- One row block's product at an entry: both operands pass through the narrower format unchanged, and the
    matrix unit adds into a zero accumulator, so entry `(r, c)` is the sum over the 64 features. -/
theorem block_product_apply (x0 : Vec Ideal S10000x64 .f32) (x1 : Vec Ideal S64x128 .f32) (j : S10000x128.Idx) :
    k0_pay1 x0 x1 j = ∑ k : Fin 64, x0 (ix2 (j 0) k) * x1 (ix2 k (j 1)) := by
  unfold k0_pay1
  exact Cert.PlainDot.matmul_zero_apply 10000 64 128 (φ₁ := .bf16) (φ₂ := .bf16) none
    (truncf .bf16 x0 bitsLt_bf16_f32) (truncf .bf16 x1 bitsLt_bf16_f32) j

/-- An entry of a row block's product is the first projection's entry at an array index `i`, once the block's
    row is the array's row `i 0` and the weight block's column is the weight matrix's column `i 1`. -/
theorem block_product_is_lin1 (X : Cert.Spec.SX.Idx → EReal) (W : Cert.Spec.SW1.Idx → EReal)
    (x0 : Vec Ideal S10000x64 .f32) (x1 : Vec Ideal S64x128 .f32) (j : S10000x128.Idx) (i : Cert.Spec.SH.Idx)
    (hx : ∀ k : Fin 64, x0 (ix2 (j 0) k) = X (ix2 (i 0) k)) (hw : ∀ k : Fin 64, x1 (ix2 k (j 1)) = W (ix2 k (i 1))) :
    k0_pay1 x0 x1 j = Cert.Spec.lin1 X W i := by
  rw [block_product_apply]
  unfold Cert.Spec.lin1
  exact Finset.sum_congr rfl fun k _ => by rw [hx k, hw k]

/-- The index maps over the grid: the two row-block windows sit at block `(t, 0)`, the weight window at `(0, 0)`. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The feature window's block at point `t` is rows `10000 t … 10000 t + 9999` of the feature array. -/
theorem feature_block_apply (c : Dev nD) (t : Fin cfg0.N) (y : S10000x64.Idx) (i : S100000x64.Idx)
    (h0 : (i 0).val = 10000 * t.val + (y 0).val) (h1 : (i 1).val = (y 1).val) :
    (iblk0 V c 0 t : Vec Ideal S10000x64 .f32) y = (V c main_arg0 : S100000x64.Idx → EReal) i := by
  obtain ⟨e0, e1, -, -, -, -⟩ := index_maps t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 64 + 1 * (y 1).val = (i 1).val; rw [e1, h1]; omega

/-- The weight window's block at every point is the whole weight matrix. -/
theorem weight_block_apply (c : Dev nD) (t : Fin cfg0.N) (y : S64x128.Idx) :
    (iblk0 V c 1 t : Vec Ideal S64x128 .f32) y = (V c main_arg2 : S64x128.Idx → EReal) y := by
  obtain ⟨-, -, e0, e1, -, -⟩ := index_maps t
  unfold iblk0
  rw [View.read_apply]
  show V c main_arg2 _ = V c main_arg2 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- What point `t` writes back is block `t` of the first projection of the arrays as the region finds them. -/
theorem written_block (c : Dev nD) (t : Fin cfg0.N) :
    (dat0 (F := Ideal) V c).flushed 2 t
      = ((cfg0.win 2).blk t).view.read (Elt Ideal) (Cert.Spec.lin1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x128) zero_offsets]
  obtain ⟨-, -, -, -, e0, e1⟩ := index_maps t
  funext j
  refine block_product_is_lin1 (V c main_arg0) (V c main_arg2) (iblk0 V c 0 t) (iblk0 V c 1 t) j
    (((cfg0.win 2).blk t).view.emb j) (fun k => ?_) (fun k => ?_)
  · refine feature_block_apply V c t _ _ ?_ rfl
    show win0_2.index t (0 : Fin 2) * 10000 + 1 * (j 0).val = 10000 * t.val + (j 0).val
    rw [e0]; omega
  · refine (weight_block_apply V c t _).trans (congrArg (V c main_arg2 : S64x128.Idx → EReal) ?_)
    funext a
    apply Fin.ext
    match a with
    | ⟨0, _⟩ => rfl
    | ⟨1, _⟩ => show (j 1).val = win0_2.index t (1 : Fin 2) * 128 + 1 * (j 1).val; rw [e1]; omega

/-- An index of the array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Every index of the array is in the block of the point its row names: row `r` in that of point `r / 10000`. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; rw [hN]; omega⟩
  have ht : t.val = (i 0).val / 10000 := rfl
  obtain ⟨-, -, -, -, e0, e1⟩ := index_maps t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 128 ≤ (i 1).val ∧ (i 1).val < win0_2.index t (1 : Fin 2) * 128 + 128; rw [e1]; omega

end Projection1

variable (V : (c : Dev nD) → (b : Ref sig .tc) → Buf (Elt Ideal) ((c : Thread nD τ).loc b))

/-- The array after the region: the first projection `x · W1` of the feature array and the weight matrix as the
    region finds them. -/
theorem region0_value (c : Dev nD) :
    (dat0 (F := Ideal) V c).arrAt 2 cfg0.N = Cert.Spec.lin1 (V c main_arg0) (V c main_arg2) :=
  (dat0 (F := Ideal) V c).arrAt_eq_of_cover 2 (Cert.Spec.lin1 (V c main_arg0) (V c main_arg2))
    (fun t _ => Projection1.written_block V c t) Projection1.blocks_cover

end Cert.KernelIdeal.RegionValue
end
-- ==== Proof.Region1.lean ====
/-
  The fused second layer, as the row-blocked computation leaves it.

  The second layer of the graph convolution adds the first bias to the aggregated hidden features, rectifies, and
  projects with the second weight matrix. It is computed in ten row blocks of 10000 of the 100000 nodes: each
  point of the grid loads rows t * 10000 … t * 10000 + 9999 of the hidden features, the whole one-row bias and the
  whole 128×64 weight matrix, and stores the 10000×64 block

      (p, q) ↦ ∑ k, max (x (p, k) + b (0, k)) 0 * w (k, q)

  over the 128 hidden features. On the extended reals the two changes of float format before the product are
  the identity, the two shape casts are to the same shape, and the product into a zero accumulator is the plain
  contraction sum, so the block is the restriction to its rows of ONE whole-array function, the specification's
  fused layer of the three arrays as the region finds them. The ten blocks are disjoint and cover the output's rows
  (row r is in block r / 10000), every point writes its block back, so the output array ends as that function.

  Also here: a bias vector reshaped to one row is the specification's one-row matrix of that vector.
-/
import proofs.«135893_j17686675324959_1_alg».proof.Proof.Gen.KernelIdeal.Frame
import proofs.«135893_j17686675324959_1_alg».proof.Proof.Spec
import proofs.«135893_j17686675324959_1_alg».proof.Proof.LibPlainDot
import Idealize.ShloMosaic.Lib.Pipeline.Value

noncomputable section

namespace Cert.KernelIdeal.RegionValue
open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace Layer2

/-- The bias row broadcast down the rows of a block reads the row's entry in the same column. -/
theorem bias_rows_apply (x1 : Vec Ideal S1x128 .f32) (p : Fin 10000) (k : Fin 128) :
    broadcastTo S10000x128 x1 broadcasts_S1x128_S10000x128 (ix2 p k) = x1 (ix2 (0 : Fin 1) k) := by
  refine broadcastTo_apply x1 _ (ix2 p k) (ix2 (0 : Fin 1) k) fun a => ?_
  match a with
  | ⟨0, _⟩ => rfl
  | ⟨1, _⟩ => rfl

/-- One entry of what the body of the second layer stores: bias added, rectified, and contracted with the
    weight block over the 128 hidden features. The two changes of float format are the identity on the
    extended reals, and the two shape casts are to the same shape. -/
theorem layer2_block_apply (x0 : Vec Ideal S10000x128 .f32) (x1 : Vec Ideal S1x128 .f32) (x2 : Vec Ideal S128x64 .f32)
    (j : S10000x64.Idx) :
    k1_pay1 x0 x1 x2 j
      = ∑ k : Fin 128, max (x0 (ix2 (j 0) k) + x1 (ix2 (0 : Fin 1) k)) Cert.Spec.zero32 * x2 (ix2 k (j 1)) := by
  unfold k1_pay1
  refine (Cert.PlainDot.matmul_zero_apply 10000 128 64 (φ₁ := .bf16) (φ₂ := .bf16) none _ _ j).trans ?_
  refine Finset.sum_congr rfl fun k _ => ?_
  have e0 : shapeCast S10000x128 x0 shapeCasts_S10000x128_S10000x128 = x0 := shapeCast_self x0 _
  have e1 : shapeCast S1x128 x1 shapeCasts_S1x128_S1x128 = x1 := shapeCast_self x1 _
  show max (shapeCast S10000x128 x0 shapeCasts_S10000x128_S10000x128 (ix2 (j 0) k)
        + broadcastTo S10000x128 (shapeCast S1x128 x1 shapeCasts_S1x128_S1x128) broadcasts_S1x128_S10000x128 (ix2 (j 0) k))
      Cert.Spec.zero32 * x2 (ix2 k (j 1)) = _
  rw [e0, e1]
  exact congrArg (fun z => max (x0 (ix2 (j 0) k) + z) Cert.Spec.zero32 * x2 (ix2 k (j 1))) (bias_rows_apply x1 (j 0) k)

theorem zero_offsets : (![0, 0] : Fin 2 → Nat) = fun _ => 0 := funext fun a => by fin_cases a <;> rfl

/-- The specification's fused layer at row r and column q, as the sum it is. -/
theorem lin2_apply (A : Cert.Spec.SH.Idx → EReal) (B : Cert.Spec.SB1.Idx → EReal) (W : Cert.Spec.SW2.Idx → EReal)
    (r : Fin 100000) (q : Fin 64) :
    Cert.Spec.lin2 A B W (ix2 r q)
      = ∑ k : Fin 128, max (A (ix2 r k) + B (ix2 (0 : Fin 1) k)) Cert.Spec.zero32 * W (ix2 k q) := rfl

/-- If the three loaded blocks read the arrays A (along row r), B and W, what the body stores at (p, q) is the
    fused layer of A, B, W at (r, q). -/
theorem layer2_block_eq (x0 : Vec Ideal S10000x128 .f32) (x1 : Vec Ideal S1x128 .f32) (x2 : Vec Ideal S128x64 .f32)
    (A : Cert.Spec.SH.Idx → EReal) (B : Cert.Spec.SB1.Idx → EReal) (W : Cert.Spec.SW2.Idx → EReal)
    (j : S10000x64.Idx) (r : Fin 100000)
    (h0 : ∀ k : Fin 128, x0 (ix2 (j 0) k) = A (ix2 r k))
    (h1 : ∀ k : Fin 128, x1 (ix2 (0 : Fin 1) k) = B (ix2 (0 : Fin 1) k))
    (h2 : ∀ k : Fin 128, x2 (ix2 k (j 1)) = W (ix2 k (j 1))) :
    k1_pay1 x0 x1 x2 j = Cert.Spec.lin2 A B W (ix2 r (j 1)) := by
  refine (layer2_block_apply x0 x1 x2 j).trans ((Finset.sum_congr rfl fun k _ => ?_).trans (lin2_apply A B W r (j 1)).symm)
  rw [h0 k, h1 k, h2 k]

/-- The printed index maps over the ten points: the hidden-feature rows block and the output rows block are at
    block row t; the bias row and the weight matrix are one block each. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of row block t, among the 100000 nodes. -/
def blockRow (t : Fin cfg1.N) (p : Fin 10000) : Fin 100000 :=
  ⟨t.val * 10000 + p.val, by have ht : t.val < 10 := lt_of_lt_of_eq t.isLt N_1; have := p.isLt; omega⟩

/-- The hidden-feature block at point t is rows t * 10000 … of the aggregated array. -/
theorem hidden_block_apply (c : Dev nD) (t : Fin cfg1.N) (p : Fin 10000) (k : Fin 128) :
    (iblk1 V c 0 t : Vec Ideal S10000x128 .f32) (ix2 p k) = (V c main_v43 : S100000x128.Idx → EReal) (ix2 (blockRow t p) k) := by
  obtain ⟨e0, e1, -⟩ := block_indices t
  unfold iblk1
  rw [View.read_apply]
  show V c main_v43 _ = V c main_v43 _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 128 + 1 * k.val = k.val; rw [e1]; omega

/-- The bias block at every point is the whole one-row array. -/
theorem bias_block_apply (c : Dev nD) (t : Fin cfg1.N) (k : Fin 128) :
    (iblk1 V c 1 t : Vec Ideal S1x128 .f32) (ix2 (0 : Fin 1) k) = (V c main_v44 : S1x128.Idx → EReal) (ix2 (0 : Fin 1) k) := by
  obtain ⟨-, -, e2, e3, -⟩ := block_indices t
  unfold iblk1
  rw [View.read_apply]
  show V c main_v44 _ = V c main_v44 _
  congr 1
  funext a
  apply Fin.ext
  match a with
  | ⟨0, _⟩ => show win1_1.index t (0 : Fin 2) * 1 + 1 * 0 = 0; rw [e2]
  | ⟨1, _⟩ => show win1_1.index t (1 : Fin 2) * 128 + 1 * k.val = k.val; rw [e3]; omega

/-- The weight block at every point is the whole 128×64 matrix. -/
theorem weight_block_apply (c : Dev nD) (t : Fin cfg1.N) (k : Fin 128) (q : Fin 64) :
    (iblk1 V c 2 t : Vec Ideal S128x64 .f32) (ix2 k q) = (V c main_arg4 : S128x64.Idx → EReal) (ix2 k q) := by
  obtain ⟨-, -, -, -, e4, e5, -⟩ := block_indices t
  unfold iblk1
  rw [View.read_apply]
  show V c main_arg4 _ = V c main_arg4 _
  congr 1
  funext a
  apply Fin.ext
  match a with
  | ⟨0, _⟩ => show win1_2.index t (0 : Fin 2) * 128 + 1 * k.val = k.val; rw [e4]; omega
  | ⟨1, _⟩ => show win1_2.index t (1 : Fin 2) * 64 + 1 * q.val = q.val; rw [e5]; omega

/-- Entry (p, q) of the output block at point t sits at row t * 10000 + p, column q of the output array. -/
theorem out_block_emb (t : Fin cfg1.N) (j : S10000x64.Idx) :
    (((cfg1.win 3).blk t).view.emb j : S100000x64.Idx) = ix2 (blockRow t (j 0)) (j 1) := by
  obtain ⟨-, -, -, -, -, -, e6, e7⟩ := block_indices t
  funext a
  apply Fin.ext
  match a with
  | ⟨0, _⟩ => show win1_3.index t (0 : Fin 2) * 10000 + 1 * (j 0).val = t.val * 10000 + (j 0).val; rw [e6]; omega
  | ⟨1, _⟩ => show win1_3.index t (1 : Fin 2) * 64 + 1 * (j 1).val = (j 1).val; rw [e7]; omega

/-- What point t writes back is block t of the fused layer of the arrays as the region finds them. -/
theorem wrote_back (c : Dev nD) (t : Fin cfg1.N) :
    (dat1 (F := Ideal) V c).flushed 3 t
      = ((cfg1.win 3).blk t).view.read (Elt Ideal) (Cert.Spec.lin2 (V c main_v43) (V c main_v44) (V c main_arg4)) := by
  show (cfg1.win 3).cut (grid1.coords t) ((dat1 (F := Ideal) V c).after 3 t) = _
  rw [after1_3]
  unfold out1_3
  rw [View.canon_unit_zero zero_offsets]
  simp only [View.ld_unit_zero (S := S10000x128) zero_offsets, View.ld_unit_zero (S := S1x128) zero_offsets,
    View.ld_unit_zero (S := S128x64) zero_offsets]
  funext j
  rw [View.read_apply, out_block_emb]
  exact layer2_block_eq _ _ _ _ _ _ j (blockRow t (j 0)) (fun k => hidden_block_apply V c t (j 0) k)
    (fun k => bias_block_apply V c t k) (fun k => weight_block_apply V c t k (j 1))

/-- An index of the output array is in point t's block iff each coordinate is in the block's range. -/
theorem mem_out_block (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v45).slice (win1_3.rect t)).set ↔ _
  rw [View.set_slice_whole, Rect.mem_set_unit]
  exact Iff.rfl

/-- Every row r of the output is in the block of point r / 10000, and every point writes its block back. -/
theorem out_blocks_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, e6, e7⟩ := block_indices t
  refine ⟨t, flush1_3 t, ?_⟩
  rw [mem_out_block]
  intro a
  match a with
  | ⟨0, _⟩ =>
    show win1_3.index t (0 : Fin 2) * 10000 ≤ (i 0).val ∧ (i 0).val < win1_3.index t (0 : Fin 2) * 10000 + 10000
    rw [e6]; omega
  | ⟨1, _⟩ =>
    show win1_3.index t (1 : Fin 2) * 64 ≤ (i 1).val ∧ (i 1).val < win1_3.index t (1 : Fin 2) * 64 + 64
    rw [e7]; omega

end Layer2
open Layer2

/-- Region 1's output array after its ten points: the fused second layer of the arrays as the region finds them. -/
theorem region1_value (c : Dev nD) :
    (dat1 (F := Ideal) V c).arrAt 3 cfg1.N = Cert.Spec.lin2 (V c main_v43) (V c main_v44) (V c main_arg4) :=
  (dat1 (F := Ideal) V c).arrAt_eq_of_cover 3 _ (fun t _ => wrote_back V c t) out_blocks_cover

/-- the kernel's reshape of a bias vector to one row -/
theorem reshape_row1 (b : FVec Ideal S128 .f32) : shapeCast S1x128 b shapeCasts_S128_S1x128 = Cert.Spec.row1 b := by
  funext j
  refine (shapeCast_addUnit_apply ![128] b _ j).trans (congrArg b (funext fun a => ?_))
  match a with
  | ⟨0, _⟩ => rfl

end Cert.KernelIdeal.RegionValue
end
-- ==== Proof.Region2.lean ====
/-
  The third row-blocked region: the final bias, `out = agg2 + b2`.

  Each of the 10 grid points loads a block of 10000 rows of the aggregated features and the one-row bias, adds the bias
  row to every row of the block, and writes the block back. The block a point writes is the block of ONE whole-array
  function, `Cert.Spec.bias` of the two arrays as the region finds them; the 10 blocks of 10000 rows cover the 100000
  rows, so the output array ends holding that function. Also here: the reshape of the bias vector to one row.
-/
import proofs.«135893_j17686675324959_1_alg».proof.Proof.Gen.KernelIdeal.Frame
import proofs.«135893_j17686675324959_1_alg».proof.Proof.Spec
import Idealize.ShloMosaic.Lib.Pipeline.Value
import Idealize.ShloMosaic.Lib.ValueLayout

noncomputable section

namespace Cert.KernelIdeal.RegionValue
open Cert.KernelIdeal Cert.KernelIdeal.Gen Idealize.ShloMosaic Idealize.ShloMosaic.TcCoe Idealize.SL.Sem
open Idealize.ShloMosaic.Pipeline (Dat Cfg Window)
open Idealize.ShloMosaic.ValueIdx

/-- The body's loads and its store start at row 0, column 0 of their staging buffers. -/
theorem origin2 : (![0, 0] : Fin 2 → Nat) = fun _ => 0 := funext fun a => by fin_cases a <;> rfl

/-- The body's arithmetic on a block: the two shape casts keep the shape, so the stored value is the block of
    aggregated features plus the bias row repeated over the block's rows. -/
theorem bias_body_eq (x0 : FVec Ideal S10000x64 .f32) (x1 : FVec Ideal S1x64 .f32) :
    k2_pay1 x0 x1 = addf x0 (broadcastTo S10000x64 x1 broadcasts_S1x64_S10000x64) := by
  unfold k2_pay1
  show addf (shapeCast S10000x64 x0 shapeCasts_S10000x64_S10000x64)
      (broadcastTo S10000x64 (shapeCast S1x64 x1 shapeCasts_S1x64_S1x64) broadcasts_S1x64_S10000x64) = _
  rw [shapeCast_self, shapeCast_self]

/-- The stored block at an entry: row `p`, column `q` is the features' entry plus the bias row's entry `q`. -/
theorem bias_body_apply (x0 : FVec Ideal S10000x64 .f32) (x1 : FVec Ideal S1x64 .f32) (j : S10000x64.Idx) :
    k2_pay1 x0 x1 j = x0 j + x1 (ix2 (0 : Fin 1) (j 1)) := by
  obtain ⟨p, q, rfl⟩ : ∃ (p : Fin 10000) (q : Fin 64), j = ix2 p q := ⟨j 0, j 1, eq_ix2 j⟩
  rw [bias_body_eq, addf_apply, broadcastTo_1b_ab_apply]

/-- The printed index maps over the 10 grid points: the features' block and the output's block move together down
    the rows (block `t` at point `t`, column block 0), the bias row stays at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point `t` writes back is block `t` of the final bias of the two arrays as the region finds them. -/
theorem bias_block_written (c : Dev nD) (t : Fin cfg2.N) :
    (dat2 (F := Ideal) V c).flushed 2 t
      = ((cfg2.win 2).blk t).view.read (Elt Ideal) (Cert.Spec.bias (V c main_v58) (V c main_v59)) := by
  show (cfg2.win 2).cut (grid2.coords t) ((dat2 (F := Ideal) V c).after 2 t) = _
  rw [after2_2]
  unfold out2_2
  rw [View.canon_unit_zero origin2]
  simp only [View.ld_unit_zero (S := S10000x64) origin2, View.ld_unit_zero (S := S1x64) origin2]
  obtain ⟨e00, e01, e10, e11, e20, e21⟩ := block_indices t
  funext j
  refine (bias_body_apply (iblk2 V c 0 t) (iblk2 V c 1 t) j).trans ?_
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (j 1))
      = ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  exact congrArg₂ (fun (x y : EReal) => x + y) (congrArg (V c main_v58) h0) (congrArg (V c main_v59) h1)

/-- A row of the output array is in point `t`'s block iff it is one of rows `10000 t … 10000 t + 9999` (and the
    column one of the 64). -/
theorem mem_bias_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v60).slice (win2_2.rect t)).set ↔ _
  rw [View.set_slice_whole, Rect.mem_set_unit]
  exact Iff.rfl

/-- Every entry of the output array is in some point's block: row `r` is written by point `r / 10000`. -/
theorem bias_blocks_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, e20, e21⟩ := block_indices t
  have ht : t.val = (i 0).val / 10000 := rfl
  refine ⟨t, flush2_2 t, ?_⟩
  rw [mem_bias_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region: the final bias of the aggregated features and the bias row. -/
theorem region2_value (c : Dev nD) :
    (dat2 (F := Ideal) V c).arrAt 2 cfg2.N = Cert.Spec.bias (V c main_v58) (V c main_v59) :=
  (dat2 (F := Ideal) V c).arrAt_eq_of_cover 2 (Cert.Spec.bias (V c main_v58) (V c main_v59))
    (fun t _ => bias_block_written V c t) bias_blocks_cover

/-- The bias vector reshaped to one row: entry `(0, c)` of the row is entry `c` of the vector. -/
theorem reshape_row2 (b : FVec Ideal S64 .f32) : shapeCast S1x64 b shapeCasts_S64_S1x64 = Cert.Spec.row2 b := by
  funext i
  obtain ⟨u, q, rfl⟩ : ∃ (u : Fin 1) (q : Fin 64), i = ix2 u q := ⟨i 0, i 1, eq_ix2 i⟩
  exact shapeCast_a_1a_apply b shapeCasts_S64_S1x64 u q

end Cert.KernelIdeal.RegionValue
end
-- ==== Proof.Dense0.lean ====
/-
  The reference's first projection is the specification's: the whole product `x · W1` read entry by entry.
-/
import proofs.«135893_j17686675324959_1_alg».proof.Proof.Gen.ReferenceIdeal
import proofs.«135893_j17686675324959_1_alg».proof.Proof.Spec
import proofs.«135893_j17686675324959_1_alg».proof.Proof.LibPlainDot

noncomputable section

namespace Cert.ReferenceIdeal.Dense
open Cert.ReferenceIdeal Cert.ReferenceIdeal.Gen Idealize.ShloMosaic

/-- The whole 100000×64 by 64×128 product, with no batch axis and the feature axis contracted, has at entry
    `(r, c)` the sum over the 64 features of `x (r, k) * w (k, c)`: the first projection. -/
theorem dense0 (x : FVec Ideal S100000x64 .f32) (w : FVec Ideal S64x128 .f32) :
    Host.dotGeneral (F := Ideal) dot_S100000x64_S64x128_S100000x128_1_0_0_1_n_n none x w = Cert.Spec.lin1 x w :=
  funext fun j => Cert.PlainDot.dotGeneral_apply 100000 64 128 none .single x w j

end Cert.ReferenceIdeal.Dense
end
-- ==== Proof.Dense1.lean ====
/-
  The reference's second dense layer at an index.

  The reference adds the first bias to the aggregated hidden features by laying the bias vector out as one row and
  broadcasting that row down the 100000 nodes, rectifies against a broadcast zero, and multiplies the whole
  100000×128 result by the 128×64 weight matrix. Entry (r, c) of the product is therefore the sum over the 128
  hidden features k of max (a (r, k) + b k) 0 * w (k, c), which is the specification's fused layer with the bias
  written as a one-row matrix.
-/
import proofs.«135893_j17686675324959_1_alg».proof.Proof.Gen.ReferenceIdeal
import proofs.«135893_j17686675324959_1_alg».proof.Proof.Spec
import proofs.«135893_j17686675324959_1_alg».proof.Proof.LibPlainDot
import Idealize.ShloMosaic.Lib.Pipeline.Value

noncomputable section

namespace Cert.ReferenceIdeal.Dense
open Cert.ReferenceIdeal Cert.ReferenceIdeal.Gen Idealize.ShloMosaic
open Idealize.ShloMosaic.ValueIdx

namespace Layer2

/-- The bias vector laid out as one row and that row repeated down the 100000 nodes: entry (r, k) is the
    vector's entry k, whatever the node r. -/
theorem bias_grid_apply (b : FVec Ideal S128 .f32) (r : Fin 100000) (k : Fin 128) :
    broadcastInDim S100000x128 ![0, 1] bcast_S1x128_S100000x128_0_1 (broadcastInDim S1x128 ![1] bcast_S128_S1x128_1 b) (ix2 r k)
      = Cert.Spec.row1 b (ix2 (0 : Fin 1) k) := by
  refine (broadcastInDim_apply _ bcast_S1x128_S100000x128_0_1 _ (ix2 r k) (ix2 (0 : Fin 1) k) fun a => ?_).trans ?_
  · match a with
    | ⟨0, _⟩ => rfl
    | ⟨1, _⟩ => rfl
  · exact broadcastInDim_apply _ bcast_S128_S1x128_1 b (ix2 (0 : Fin 1) k) (ix1 k) fun a =>
      match a with
      | ⟨0, _⟩ => rfl

end Layer2
open Layer2

/-- Bias broadcast, add, rectifier and the whole product: the specification's fused second layer. -/
theorem dense1 (a : FVec Ideal S100000x128 .f32) (b : FVec Ideal S128 .f32) (w : FVec Ideal S128x64 .f32) :
    Host.dotGeneral (F := Ideal) dot_S100000x128_S128x64_S100000x64_1_0_0_1_n_n none
      (maximumf (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))) w
      = Cert.Spec.lin2 a (Cert.Spec.row1 b) w := by
  funext j
  refine (Cert.PlainDot.dotGeneral_apply 100000 128 64 none .single _ w j).trans ?_
  show _ = ∑ k : Fin 128, max (a (ix2 (j 0) k) + Cert.Spec.row1 b (ix2 (0 : Fin 1) k)) Cert.Spec.zero32 * w (ix2 k (j 1))
  refine Finset.sum_congr rfl fun k _ => ?_
  exact congrArg (fun z => max (a (ix2 (j 0) k) + z) Cert.Spec.zero32 * w (ix2 k (j 1))) (bias_grid_apply b (j 0) k)

end Cert.ReferenceIdeal.Dense
end
-- ==== Proof.Dense2.lean ====
/-
  The reference's final bias. The bias vector is laid out as one row (a broadcast along a new leading axis), that row
  is repeated over the 100000 node rows, and the result is added to the aggregated features: entry `(r, c)` is
  `a (r, c) + b c`, which is the whole-array function `Cert.Spec.bias a (Cert.Spec.row2 b)`.
-/
import proofs.«135893_j17686675324959_1_alg».proof.Proof.Gen.ReferenceIdeal
import proofs.«135893_j17686675324959_1_alg».proof.Proof.Spec
import Idealize.ShloMosaic.Lib.Pipeline.Value

noncomputable section

namespace Cert.ReferenceIdeal.Dense
open Cert.ReferenceIdeal Cert.ReferenceIdeal.Gen Idealize.ShloMosaic Idealize.ShloMosaic.ValueIdx

/-- The bias vector as one row: entry `(u, c)` of the row is entry `c` of the vector. -/
theorem bias_as_row_apply (b : FVec Ideal S64 .f32) (i : S1x64.Idx) :
    broadcastInDim S1x64 ![1] bcast_S64_S1x64_1 b i = b (ix1 (i 1)) :=
  broadcastInDim_apply _ bcast_S64_S1x64_1 b i (ix1 (i 1)) (fun a => match a with
    | ⟨0, _⟩ => by show (i 1).val = if (64 : Nat) = 1 then 0 else (i 1).val; rw [if_neg (by decide)])

/-- One row repeated over all node rows: entry `(r, c)` is entry `(0, c)` of the row. -/
theorem row_over_nodes_apply (y : FVec Ideal S1x64 .f32) (i : S100000x64.Idx) :
    broadcastInDim S100000x64 ![0, 1] bcast_S1x64_S100000x64_0_1 y i = y (ix2 (0 : Fin 1) (i 1)) :=
  broadcastInDim_apply _ bcast_S1x64_S100000x64_0_1 y i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The reference's bias broadcast and add, entry by entry, is the final bias of the aggregated features. -/
theorem dense2 (a : FVec Ideal S100000x64 .f32) (b : FVec Ideal S64 .f32) :
    addf a (broadcastInDim S100000x64 ![0, 1] bcast_S1x64_S100000x64_0_1 (broadcastInDim S1x64 ![1] bcast_S64_S1x64_1 b))
      = Cert.Spec.bias a (Cert.Spec.row2 b) := by
  funext i
  rw [addf_apply, row_over_nodes_apply, bias_as_row_apply]
  rfl

end Cert.ReferenceIdeal.Dense
end
-- ==== Proof.Join.lean ====
/-
  The two programs end with the same result array.

  Follow both runs boundary by boundary. After the edge-list prefix the source, destination and normalisation arrays
  agree (the same operations on the same edge list). At each of the three dense steps the row-blocked region's output
  array — its blocks laid side by side — and the reference's whole-array operation are the same function of arrays that
  agree: the first projection `x · W1`; then `max (agg + b1) 0 · W2`, where one side reshapes the bias to a row and the
  other broadcasts it; then `agg + b2`. Between the dense steps both sides run the same gather / scale / scatter-add,
  so agreeing projections give agreeing aggregations. Nothing here uses that the inputs are finite: the two sides
  apply the same exact operations in the same order, and a sum over the contracted axis is the same sum however it
  was tiled.
-/
import proofs.«135893_j17686675324959_1_alg».proof.Proof.StagePrefix
import proofs.«135893_j17686675324959_1_alg».proof.Proof.StageAgg
import proofs.«135893_j17686675324959_1_alg».proof.Proof.StageKeep
import proofs.«135893_j17686675324959_1_alg».proof.Proof.Region0
import proofs.«135893_j17686675324959_1_alg».proof.Proof.Region1
import proofs.«135893_j17686675324959_1_alg».proof.Proof.Region2
import proofs.«135893_j17686675324959_1_alg».proof.Proof.Dense0
import proofs.«135893_j17686675324959_1_alg».proof.Proof.Dense1
import proofs.«135893_j17686675324959_1_alg».proof.Proof.Dense2

noncomputable section

namespace Cert.Join

open Idealize.ShloMosaic Idealize.ShloMosaic.TcCoe Idealize.SL.Sem Idealize.ShloMosaic.StableHlo
open Cert.KernelIdeal.Gen (W0 W3 W4 W5 W6 W7 W8 V3 V5 V7 W4_arr W4_of_ne W6_arr W6_of_ne W8_arr dat0 dat1 dat2)
open Cert.KernelIdeal.RegionValue Cert.ReferenceIdeal.Dense Cert.ReferenceIdeal.Fold

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The three edge arrays agree between a memory of each program. -/
structure Edge (X : VK) (Y : VR) : Prop where
  s : X (Proc.devRef .tc Cert.KernelIdeal.main_v3) = Y (Proc.devRef .tc Cert.ReferenceIdeal.main_v3)
  d : X (Proc.devRef .tc Cert.KernelIdeal.main_v6) = Y (Proc.devRef .tc Cert.ReferenceIdeal.main_v6)
  n : X (Proc.devRef .tc Cert.KernelIdeal.main_v29) = Y (Proc.devRef .tc Cert.ReferenceIdeal.main_v29)

/-! ## The edge arrays, carried from the prefix to the second aggregation -/

theorem edge3 (Y : VR) (h1 : W0 m ρ c (Proc.devRef .tc Cert.KernelIdeal.main_arg1) = Y (Proc.devRef .tc Cert.ReferenceIdeal.main_arg1)) : Edge (W3 m ρ c) (after (w0 (F := Ideal)) Y) :=
  ⟨prefix_src (W0 m ρ c) Y h1, prefix_dst (W0 m ρ c) Y h1, prefix_norm (W0 m ρ c) Y h1⟩

theorem edge4 (Y : VR) (h : Edge (W3 m ρ c) Y) : Edge (W4 m ρ c) (after (w1 (F := Ideal)) Y) :=
  ⟨(W4_of_ne m ρ c Cert.KernelIdeal.main_v3 (by decide)).trans (h.s.trans (rw1_main_v3 Y).symm),
   (W4_of_ne m ρ c Cert.KernelIdeal.main_v6 (by decide)).trans (h.d.trans (rw1_main_v6 Y).symm),
   (W4_of_ne m ρ c Cert.KernelIdeal.main_v29 (by decide)).trans (h.n.trans (rw1_main_v29 Y).symm)⟩

theorem edge5 (Y : VR) (h : Edge (W4 m ρ c) Y) : Edge (W5 m ρ c) (after (w2 (F := Ideal)) Y) :=
  ⟨(khost1_main_v3 (W4 m ρ c)).trans (h.s.trans (rw2_main_v3 Y).symm),
   (khost1_main_v6 (W4 m ρ c)).trans (h.d.trans (rw2_main_v6 Y).symm),
   (khost1_main_v29 (W4 m ρ c)).trans (h.n.trans (rw2_main_v29 Y).symm)⟩

theorem edge6 (Y : VR) (h : Edge (W5 m ρ c) Y) : Edge (W6 m ρ c) (after (w3 (F := Ideal)) Y) :=
  ⟨(W6_of_ne m ρ c Cert.KernelIdeal.main_v3 (by decide)).trans (h.s.trans (rw3_main_v3 Y).symm),
   (W6_of_ne m ρ c Cert.KernelIdeal.main_v6 (by decide)).trans (h.d.trans (rw3_main_v6 Y).symm),
   (W6_of_ne m ρ c Cert.KernelIdeal.main_v29 (by decide)).trans (h.n.trans (rw3_main_v29 Y).symm)⟩

/-! ## The weight and bias arguments, carried to where each is used -/

theorem arg0_at3 (Y : VR) (h : W0 m ρ c (Proc.devRef .tc Cert.KernelIdeal.main_arg0) = Y (Proc.devRef .tc Cert.ReferenceIdeal.main_arg0)) :
    W3 m ρ c (Proc.devRef .tc Cert.KernelIdeal.main_arg0) = after (w0 (F := Ideal)) Y (Proc.devRef .tc Cert.ReferenceIdeal.main_arg0) :=
  (kprefix_main_arg0 (W0 m ρ c)).trans (h.trans (rw0_main_arg0 Y).symm)

theorem arg2_at3 (Y : VR) (h : W0 m ρ c (Proc.devRef .tc Cert.KernelIdeal.main_arg2) = Y (Proc.devRef .tc Cert.ReferenceIdeal.main_arg2)) :
    W3 m ρ c (Proc.devRef .tc Cert.KernelIdeal.main_arg2) = after (w0 (F := Ideal)) Y (Proc.devRef .tc Cert.ReferenceIdeal.main_arg2) :=
  (kprefix_main_arg2 (W0 m ρ c)).trans (h.trans (rw0_main_arg2 Y).symm)

theorem arg3_at4 (Y : VR) (h : W0 m ρ c (Proc.devRef .tc Cert.KernelIdeal.main_arg3) = Y (Proc.devRef .tc Cert.ReferenceIdeal.main_arg3)) :
    W4 m ρ c (Proc.devRef .tc Cert.KernelIdeal.main_arg3)
      = after (w2 (F := Ideal)) (after (w1 (F := Ideal)) (after (w0 (F := Ideal)) Y)) (Proc.devRef .tc Cert.ReferenceIdeal.main_arg3) :=
  (W4_of_ne m ρ c Cert.KernelIdeal.main_arg3 (by decide)).trans ((kprefix_main_arg3 (W0 m ρ c)).trans (h.trans
    ((rw2_main_arg3 _).trans ((rw1_main_arg3 _).trans (rw0_main_arg3 Y))).symm))

theorem arg4_at5 (Y : VR) (h : W0 m ρ c (Proc.devRef .tc Cert.KernelIdeal.main_arg4) = Y (Proc.devRef .tc Cert.ReferenceIdeal.main_arg4)) :
    W5 m ρ c (Proc.devRef .tc Cert.KernelIdeal.main_arg4)
      = after (w2 (F := Ideal)) (after (w1 (F := Ideal)) (after (w0 (F := Ideal)) Y)) (Proc.devRef .tc Cert.ReferenceIdeal.main_arg4) :=
  (khost1_main_arg4 (W4 m ρ c)).trans ((W4_of_ne m ρ c Cert.KernelIdeal.main_arg4 (by decide)).trans ((kprefix_main_arg4 (W0 m ρ c)).trans (h.trans
    ((rw2_main_arg4 _).trans ((rw1_main_arg4 _).trans (rw0_main_arg4 Y))).symm)))

theorem arg5_at6 (Y : VR) (h : W0 m ρ c (Proc.devRef .tc Cert.KernelIdeal.main_arg5) = Y (Proc.devRef .tc Cert.ReferenceIdeal.main_arg5)) :
    W6 m ρ c (Proc.devRef .tc Cert.KernelIdeal.main_arg5)
      = after (w4 (F := Ideal)) (after (w3 (F := Ideal)) (after (w2 (F := Ideal)) (after (w1 (F := Ideal)) (after (w0 (F := Ideal)) Y)))) (Proc.devRef .tc Cert.ReferenceIdeal.main_arg5) :=
  (W6_of_ne m ρ c Cert.KernelIdeal.main_arg5 (by decide)).trans ((khost1_main_arg5 (W4 m ρ c)).trans ((W4_of_ne m ρ c Cert.KernelIdeal.main_arg5 (by decide)).trans
    ((kprefix_main_arg5 (W0 m ρ c)).trans (h.trans
      ((rw4_main_arg5 _).trans ((rw3_main_arg5 _).trans ((rw2_main_arg5 _).trans ((rw1_main_arg5 _).trans (rw0_main_arg5 Y))))).symm))))

/-! ## The three dense steps -/

/-- First projection: the region's output array and the reference's whole product are one function of the features
    and the first weights. -/
theorem proj1 (Y : VR)
    (h0 : W3 m ρ c (Proc.devRef .tc Cert.KernelIdeal.main_arg0) = Y (Proc.devRef .tc Cert.ReferenceIdeal.main_arg0))
    (h2 : W3 m ρ c (Proc.devRef .tc Cert.KernelIdeal.main_arg2) = Y (Proc.devRef .tc Cert.ReferenceIdeal.main_arg2)) :
    W4 m ρ c (Proc.devRef .tc Cert.KernelIdeal.main_v30) = after (w1 (F := Ideal)) Y (Proc.devRef .tc Cert.ReferenceIdeal.main_v30) := by
  have hk : W4 m ρ c (Proc.devRef .tc Cert.KernelIdeal.main_v30) = Cert.Spec.lin1 (W3 m ρ c (Proc.devRef .tc Cert.KernelIdeal.main_arg0)) (W3 m ρ c (Proc.devRef .tc Cert.KernelIdeal.main_arg2)) :=
    (W4_arr m ρ c 2).trans (region0_value (V3 m ρ) c)
  have hr : after (w1 (F := Ideal)) Y (Proc.devRef .tc Cert.ReferenceIdeal.main_v30) = Cert.Spec.lin1 (Y (Proc.devRef .tc Cert.ReferenceIdeal.main_arg0)) (Y (Proc.devRef .tc Cert.ReferenceIdeal.main_arg2)) :=
    (ref_lin1 Y).trans (dense0 _ _)
  rw [hk, hr, h0, h2]

/-- Bias, rectifier, second projection: one side reshapes the bias to a row, the other broadcasts it. -/
theorem proj2 (Y : VR)
    (h43 : W5 m ρ c (Proc.devRef .tc Cert.KernelIdeal.main_v43) = Y (Proc.devRef .tc Cert.ReferenceIdeal.main_v43))
    (h3 : W4 m ρ c (Proc.devRef .tc Cert.KernelIdeal.main_arg3) = Y (Proc.devRef .tc Cert.ReferenceIdeal.main_arg3))
    (h4 : W5 m ρ c (Proc.devRef .tc Cert.KernelIdeal.main_arg4) = Y (Proc.devRef .tc Cert.ReferenceIdeal.main_arg4)) :
    W6 m ρ c (Proc.devRef .tc Cert.KernelIdeal.main_v45) = after (w3 (F := Ideal)) Y (Proc.devRef .tc Cert.ReferenceIdeal.main_v48) := by
  have hb : W5 m ρ c (Proc.devRef .tc Cert.KernelIdeal.main_v44) = Cert.Spec.row1 (W4 m ρ c (Proc.devRef .tc Cert.KernelIdeal.main_arg3)) :=
    (bias1_row (W4 m ρ c)).trans (reshape_row1 _)
  have hk : W6 m ρ c (Proc.devRef .tc Cert.KernelIdeal.main_v45)
      = Cert.Spec.lin2 (W5 m ρ c (Proc.devRef .tc Cert.KernelIdeal.main_v43)) (W5 m ρ c (Proc.devRef .tc Cert.KernelIdeal.main_v44)) (W5 m ρ c (Proc.devRef .tc Cert.KernelIdeal.main_arg4)) :=
    (W6_arr m ρ c 3).trans (region1_value (V5 m ρ) c)
  have hr : after (w3 (F := Ideal)) Y (Proc.devRef .tc Cert.ReferenceIdeal.main_v48)
      = Cert.Spec.lin2 (Y (Proc.devRef .tc Cert.ReferenceIdeal.main_v43)) (Cert.Spec.row1 (Y (Proc.devRef .tc Cert.ReferenceIdeal.main_arg3))) (Y (Proc.devRef .tc Cert.ReferenceIdeal.main_arg4)) :=
    (ref_lin2 Y).trans (dense1 _ _ _)
  rw [hk, hr, hb, h43, h3, h4]

/-- Final bias. -/
theorem proj3 (Y : VR)
    (h58 : W7 m ρ c (Proc.devRef .tc Cert.KernelIdeal.main_v58) = Y (Proc.devRef .tc Cert.ReferenceIdeal.main_v61))
    (h5 : W6 m ρ c (Proc.devRef .tc Cert.KernelIdeal.main_arg5) = Y (Proc.devRef .tc Cert.ReferenceIdeal.main_arg5)) :
    W8 m ρ c (Proc.devRef .tc Cert.KernelIdeal.main_v60) = after (w5 (F := Ideal)) Y (Proc.devRef .tc Cert.ReferenceIdeal.main_v64) := by
  have hb : W7 m ρ c (Proc.devRef .tc Cert.KernelIdeal.main_v59) = Cert.Spec.row2 (W6 m ρ c (Proc.devRef .tc Cert.KernelIdeal.main_arg5)) :=
    (bias2_row (W6 m ρ c)).trans (reshape_row2 _)
  have hk : W8 m ρ c (Proc.devRef .tc Cert.KernelIdeal.main_v60) = Cert.Spec.bias (W7 m ρ c (Proc.devRef .tc Cert.KernelIdeal.main_v58)) (W7 m ρ c (Proc.devRef .tc Cert.KernelIdeal.main_v59)) :=
    (W8_arr m ρ c 2).trans (region2_value (V7 m ρ) c)
  have hr : after (w5 (F := Ideal)) Y (Proc.devRef .tc Cert.ReferenceIdeal.main_v64) = Cert.Spec.bias (Y (Proc.devRef .tc Cert.ReferenceIdeal.main_v61)) (Cert.Spec.row2 (Y (Proc.devRef .tc Cert.ReferenceIdeal.main_arg5))) :=
    (ref_bias Y).trans (dense2 _ _)
  rw [hk, hr, hb, h58, h5]

/-! ## The whole run -/

/-- From launch memories that agree on the six arguments, the reference's result array (the fold of its 83 operations
    read at `main_v64`) is the row-blocked program's result array (its last boundary read at `main_v60`). -/
theorem result_eq (m' : (ℓ : Loc Cert.ReferenceIdeal.nD Cert.ReferenceIdeal.τ Cert.ReferenceIdeal.sig) → Buf (Elt Ideal) ℓ)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.RunP.ops (F := Ideal)) (launchContents m' c) (Proc.devRef .tc Cert.ReferenceIdeal.main_v64) = W8 m ρ c (Proc.devRef .tc Cert.KernelIdeal.main_v60) := by
  obtain ⟨e0, e1, e2, e3, e4, e5⟩ := hag
  have a0 : W0 m ρ c (Proc.devRef .tc Cert.KernelIdeal.main_arg0) = launchContents m' c (Proc.devRef .tc Cert.ReferenceIdeal.main_arg0) := e0.symm
  have a1 : W0 m ρ c (Proc.devRef .tc Cert.KernelIdeal.main_arg1) = launchContents m' c (Proc.devRef .tc Cert.ReferenceIdeal.main_arg1) := e1.symm
  have a2 : W0 m ρ c (Proc.devRef .tc Cert.KernelIdeal.main_arg2) = launchContents m' c (Proc.devRef .tc Cert.ReferenceIdeal.main_arg2) := e2.symm
  have a3 : W0 m ρ c (Proc.devRef .tc Cert.KernelIdeal.main_arg3) = launchContents m' c (Proc.devRef .tc Cert.ReferenceIdeal.main_arg3) := e3.symm
  have a4 : W0 m ρ c (Proc.devRef .tc Cert.KernelIdeal.main_arg4) = launchContents m' c (Proc.devRef .tc Cert.ReferenceIdeal.main_arg4) := e4.symm
  have a5 : W0 m ρ c (Proc.devRef .tc Cert.KernelIdeal.main_arg5) = launchContents m' c (Proc.devRef .tc Cert.ReferenceIdeal.main_arg5) := e5.symm
  have E3 := edge3 m ρ c (launchContents m' c) a1
  have E4 := edge4 m ρ c _ E3
  have E5 := edge5 m ρ c _ E4
  have E6 := edge6 m ρ c _ E5
  have H1 := proj1 m ρ c _ (arg0_at3 m ρ c _ a0) (arg2_at3 m ρ c _ a2)
  have H2 := agg1 (W4 m ρ c) _ H1 E4.s E4.d E4.n
  have H3 := proj2 m ρ c _ H2 (arg3_at4 m ρ c _ a3) (arg4_at5 m ρ c _ a4)
  have H4 := agg2 (W6 m ρ c) _ H3 E6.s E6.d E6.n
  have H5 := proj3 m ρ c _ H4 (arg5_at6 m ρ c _ a5)
  rw [after_ops]
  exact H5.symm

/-- The reference's fold leaves each argument array as launched. -/
theorem ref_args (m' : (ℓ : Loc Cert.ReferenceIdeal.nD Cert.ReferenceIdeal.τ Cert.ReferenceIdeal.sig) → Buf (Elt Ideal) ℓ) (c : Dev Cert.ReferenceIdeal.nD) :
    after (Cert.ReferenceIdeal.RunP.ops (F := Ideal)) (launchContents m' c) (Proc.devRef .tc Cert.ReferenceIdeal.main_arg0) = m' ((c.tc : Thread Cert.ReferenceIdeal.nD Cert.ReferenceIdeal.τ).loc Cert.ReferenceIdeal.main_arg0)
    ∧ after (Cert.ReferenceIdeal.RunP.ops (F := Ideal)) (launchContents m' c) (Proc.devRef .tc Cert.ReferenceIdeal.main_arg1) = m' ((c.tc : Thread Cert.ReferenceIdeal.nD Cert.ReferenceIdeal.τ).loc Cert.ReferenceIdeal.main_arg1)
    ∧ after (Cert.ReferenceIdeal.RunP.ops (F := Ideal)) (launchContents m' c) (Proc.devRef .tc Cert.ReferenceIdeal.main_arg2) = m' ((c.tc : Thread Cert.ReferenceIdeal.nD Cert.ReferenceIdeal.τ).loc Cert.ReferenceIdeal.main_arg2)
    ∧ after (Cert.ReferenceIdeal.RunP.ops (F := Ideal)) (launchContents m' c) (Proc.devRef .tc Cert.ReferenceIdeal.main_arg3) = m' ((c.tc : Thread Cert.ReferenceIdeal.nD Cert.ReferenceIdeal.τ).loc Cert.ReferenceIdeal.main_arg3)
    ∧ after (Cert.ReferenceIdeal.RunP.ops (F := Ideal)) (launchContents m' c) (Proc.devRef .tc Cert.ReferenceIdeal.main_arg4) = m' ((c.tc : Thread Cert.ReferenceIdeal.nD Cert.ReferenceIdeal.τ).loc Cert.ReferenceIdeal.main_arg4)
    ∧ after (Cert.ReferenceIdeal.RunP.ops (F := Ideal)) (launchContents m' c) (Proc.devRef .tc Cert.ReferenceIdeal.main_arg5) = m' ((c.tc : Thread Cert.ReferenceIdeal.nD Cert.ReferenceIdeal.τ).loc Cert.ReferenceIdeal.main_arg5) := by
  refine ⟨?_, ?_, ?_, ?_, ?_, ?_⟩ <;> (after_results_simp <;> rfl)

end Cert.Join

end
-- ==== Proof.lean ====
/-
  A two-layer graph convolution computed in three row-blocked regions equals its plain reference, on the extended reals.

  Both programs compute `out = Â · max (Â · (x · W1) + b1, 0) · W2 + b2`, where `Â ·` is the normalised neighbour
  aggregation over the edge list with a self loop at every node (gather along the sources, scale by
  `deg^(-1/2)[src] · deg^(-1/2)[dst]`, scatter-add into the destinations). The reference is one straight line of host
  operations. The other program runs the edge-list prefix and the two aggregations as the same host operations, and
  computes the three dense steps — `x · W1`; `max (· + b1) 0 · W2`; `· + b2` — in regions that walk the 100000 nodes in
  ten blocks of 10000 rows, passing the matrix unit's operands through a narrower float format.

  At the extended reals a change of float format is the identity and every operation is exact, so each region's
  output array, its ten blocks side by side, is one whole-array function of the arrays the region starts from
  (Spec.lean), and that function is also what the reference's corresponding operations compute (a product's entry is
  the same sum over the contracted axis whether or not the rows were tiled; a bias reshaped to one row and then
  broadcast inside the region is the bias broadcast by the host). The two runs are followed boundary by boundary
  (Join.lean): agreeing arrays go in, the same operations or the same function is applied, agreeing arrays come out.
  No step uses finiteness of the inputs: nothing is distributed, cancelled or reassociated across the two sides
  beyond the order of a finite sum.

  The word-level program's claim is its frame only, and it has no rewrite ledger (`preserves` is `True`).
-/
import proofs.«135893_j17686675324959_1_alg».proof.Defs
import proofs.«135893_j17686675324959_1_alg».proof.Proof.Gen.Kernel
import proofs.«135893_j17686675324959_1_alg».proof.Proof.Gen.Kernel.Skeleton
import proofs.«135893_j17686675324959_1_alg».proof.Proof.Gen.Kernel.Launch
import proofs.«135893_j17686675324959_1_alg».proof.Proof.Gen.Kernel.Points
import proofs.«135893_j17686675324959_1_alg».proof.Proof.Gen.Kernel.Frame
import proofs.«135893_j17686675324959_1_alg».proof.Proof.Gen.KernelIdeal
import proofs.«135893_j17686675324959_1_alg».proof.Proof.Gen.KernelIdeal.Skeleton
import proofs.«135893_j17686675324959_1_alg».proof.Proof.Gen.KernelIdeal.Launch
import proofs.«135893_j17686675324959_1_alg».proof.Proof.Gen.KernelIdeal.Points
import proofs.«135893_j17686675324959_1_alg».proof.Proof.Gen.KernelIdeal.Frame
import proofs.«135893_j17686675324959_1_alg».proof.Proof.Gen.ReferenceIdeal
import proofs.«135893_j17686675324959_1_alg».proof.Proof.Gen.Pre_finite_inputs
import proofs.«135893_j17686675324959_1_alg».proof.Proof.KRun
import proofs.«135893_j17686675324959_1_alg».proof.Proof.RefRunP
import proofs.«135893_j17686675324959_1_alg».proof.Proof.Join
import Idealize.ShloMosaic.Adequacy
import Idealize.ShloMosaic.Init

noncomputable section

namespace Cert.Proof

open Idealize.ShloMosaic Idealize.SL.Sem Cert.Kernel

/-- The word-level program runs and leaves its arguments alone. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs, and its fold of 83 operations writes no argument. -/
theorem frame_referenceIdeal : Cert.frame_ReferenceIdeal := fun m ρ _ =>
  (θ_run Cert.ReferenceIdeal.defs _ _).mono
    (fun r h c =>
      have a := Cert.Join.ref_args m c
      ⟨(h c _).trans a.1, (h c _).trans a.2.1, (h c _).trans a.2.2.1, (h c _).trans a.2.2.2.1,
        (h c _).trans a.2.2.2.2.1, (h c _).trans a.2.2.2.2.2⟩)
    (Cert.ReferenceIdeal.RunP.run_raw (F := Ideal) m ρ)

/-- No operation was rewritten when the program was read at the extended reals. -/
theorem preserves : Cert.preserves_Kernel_KernelIdeal := trivial

/-- From memories agreeing on the six arguments both programs end with the same result array: the row-blocked
    program's last boundary read at its result, which the reference's fold equals. -/
theorem algebraic : Cert.algebraic_KernelIdeal_ReferenceIdeal := by
  intro m ρ m' ρ' _ hagree
  refine ⟨fun c => Cert.KernelIdeal.Gen.W8 m ρ c (Proc.devRef .tc Cert.KernelIdeal.main_v60),
    Cert.KernelIdeal.RunVal.run_val (F := Ideal) m ρ, ?_⟩
  refine (θ_run Cert.ReferenceIdeal.defs _ _).mono (fun r h c => ?_) (Cert.ReferenceIdeal.RunP.run_raw (F := Ideal) m' ρ')
  have a := Cert.Join.ref_args m' c
  exact ⟨(h c _).trans (Cert.Join.result_eq m ρ c m' (hagree c)), (h c _).trans a.1, (h c _).trans a.2.1,
    (h c _).trans a.2.2.1, (h c _).trans a.2.2.2.1, (h c _).trans a.2.2.2.2.1, (h c _).trans a.2.2.2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
